-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S64x64 : Shape := ⟨2, ![64, 64]⟩
abbrev S64 : Shape := ⟨1, ![64]⟩
abbrev S2x500000 : Shape := ⟨2, ![2, 500000]⟩
abbrev S2x1250000 : Shape := ⟨2, ![2, 1250000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S200000x64 .f32) (main_arg1 : FVec F S64x64 .f32) (main_arg2 : FVec F S64 .f32) (main_arg3 : IVec S2x500000 32) (main_arg4 : IVec S2x1250000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S200000x64 : Shape := ⟨2, ![200000, 64]⟩
abbrev S64x64 : Shape := ⟨2, ![64, 64]⟩
abbrev S64 : Shape := ⟨1, ![64]⟩
abbrev S2x500000 : Shape := ⟨2, ![2, 500000]⟩
abbrev S2x1250000 : Shape := ⟨2, ![2, 1250000]⟩
abbrev S1x1250000 : Shape := ⟨2, ![1, 1250000]⟩
abbrev S1250000 : Shape := ⟨1, ![1250000]⟩
abbrev S_ : Shape := ⟨0, ![]⟩
abbrev S200000 : Shape := ⟨1, ![200000]⟩
abbrev S1250000x1 : Shape := ⟨2, ![1250000, 1]⟩
abbrev S1250000x64 : Shape := ⟨2, ![1250000, 64]⟩
abbrev S1253376x64 : Shape := ⟨2, ![1253376, 64]⟩
abbrev S1253376 : Shape := ⟨1, ![1253376]⟩
abbrev S1253376x1 : Shape := ⟨2, ![1253376, 1]⟩
abbrev S8192x64 : Shape := ⟨2, ![8192, 64]⟩
abbrev S8192x1 : Shape := ⟨2, ![8192, 1]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩
abbrev S507904x64 : Shape := ⟨2, ![507904, 64]⟩
abbrev S1x507904 : Shape := ⟨2, ![1, 507904]⟩
abbrev S16384x64 : Shape := ⟨2, ![16384, 64]⟩
abbrev S1x16384 : Shape := ⟨2, ![1, 16384]⟩
abbrev S16384 : Shape := ⟨1, ![16384]⟩
abbrev S16384x1 : Shape := ⟨2, ![16384, 1]⟩
abbrev S507904 : Shape := ⟨1, ![507904]⟩

abbrev nBuf : Space → Nat
  | .hbm => 98
  | .vmem => 12
  | .smem => 0
  | _ => 0

abbrev bufTy : (tb : Table) → Fin (tcTables nBuf tb) → BufTy
  | .hbm, ⟨0, _⟩ => ⟨S200000x64, .f32⟩
  | .hbm, ⟨1, _⟩ => ⟨S64x64, .f32⟩
  | .hbm, ⟨2, _⟩ => ⟨S64, .f32⟩
  | .hbm, ⟨3, _⟩ => ⟨S2x500000, .i32⟩
  | .hbm, ⟨4, _⟩ => ⟨S2x1250000, .i32⟩
  | .hbm, ⟨5, _⟩ => ⟨S1x1250000, .i32⟩
  | .hbm, ⟨6, _⟩ => ⟨S1250000, .i32⟩
  | .hbm, ⟨7, _⟩ => ⟨S1x1250000, .i32⟩
  | .hbm, ⟨8, _⟩ => ⟨S1250000, .i32⟩
  | .hbm, ⟨9, _⟩ => ⟨S_, .f32⟩
  | .hbm, ⟨10, _⟩ => ⟨S1250000, .f32⟩
  | .hbm, ⟨11, _⟩ => ⟨S_, .f32⟩
  | .hbm, ⟨12, _⟩ => ⟨S200000, .f32⟩
  | .hbm, ⟨13, _⟩ => ⟨S1250000x1, .i32⟩
  | .hbm, ⟨14, _⟩ => ⟨S200000, .f32⟩
  | .hbm, ⟨15, _⟩ => ⟨S_, .f32⟩
  | .hbm, ⟨16, _⟩ => ⟨S200000, .f32⟩
  | .hbm, ⟨17, _⟩ => ⟨S200000, .i1⟩
  | .hbm, ⟨18, _⟩ => ⟨S_, .f32⟩
  | .hbm, ⟨19, _⟩ => ⟨S200000, .f32⟩
  | .hbm, ⟨20, _⟩ => ⟨S200000, .f32⟩
  | .hbm, ⟨21, _⟩ => ⟨S200000, .f32⟩
  | .hbm, ⟨22, _⟩ => ⟨S_, .f32⟩
  | .hbm, ⟨23, _⟩ => ⟨S_, .f32⟩
  | .hbm, ⟨24, _⟩ => ⟨S200000, .f32⟩
  | .hbm, ⟨25, _⟩ => ⟨S200000, .f32⟩
  | .hbm, ⟨26, _⟩ => ⟨S_, .i32⟩
  | .hbm, ⟨27, _⟩ => ⟨S1250000, .i32⟩
  | .hbm, ⟨28, _⟩ => ⟨S1250000, .i1⟩
  | .hbm, ⟨29, _⟩ => ⟨S_, .i32⟩
  | .hbm, ⟨30, _⟩ => ⟨S1250000, .i32⟩
  | .hbm, ⟨31, _⟩ => ⟨S1250000, .i32⟩
  | .hbm, ⟨32, _⟩ => ⟨S1250000, .i32⟩
  | .hbm, ⟨33, _⟩ => ⟨S1250000x1, .i32⟩
  | .hbm, ⟨34, _⟩ => ⟨S1250000, .f32⟩
  | .hbm, ⟨35, _⟩ => ⟨S_, .i32⟩
  | .hbm, ⟨36, _⟩ => ⟨S1250000, .i32⟩
  | .hbm, ⟨37, _⟩ => ⟨S1250000, .i1⟩
  | .hbm, ⟨38, _⟩ => ⟨S_, .i32⟩
  | .hbm, ⟨39, _⟩ => ⟨S1250000, .i32⟩
  | .hbm, ⟨40, _⟩ => ⟨S1250000, .i32⟩
  | .hbm, ⟨41, _⟩ => ⟨S1250000, .i32⟩
  | .hbm, ⟨42, _⟩ => ⟨S1250000x1, .i32⟩
  | .hbm, ⟨43, _⟩ => ⟨S1250000, .f32⟩
  | .hbm, ⟨44, _⟩ => ⟨S1250000, .f32⟩
  | .hbm, ⟨45, _⟩ => ⟨S_, .i32⟩
  | .hbm, ⟨46, _⟩ => ⟨S1250000, .i32⟩
  | .hbm, ⟨47, _⟩ => ⟨S1250000, .i1⟩
  | .hbm, ⟨48, _⟩ => ⟨S_, .i32⟩
  | .hbm, ⟨49, _⟩ => ⟨S1250000, .i32⟩
  | .hbm, ⟨50, _⟩ => ⟨S1250000, .i32⟩
  | .hbm, ⟨51, _⟩ => ⟨S1250000, .i32⟩
  | .hbm, ⟨52, _⟩ => ⟨S1250000x1, .i32⟩
  | .hbm, ⟨53, _⟩ => ⟨S1250000x64, .f32⟩
  | .hbm, ⟨54, _⟩ => ⟨S_, .i32⟩
  | .hbm, ⟨55, _⟩ => ⟨S_, .f32⟩
  | .hbm, ⟨56, _⟩ => ⟨S1253376x64, .f32⟩
  | .hbm, ⟨57, _⟩ => ⟨S_, .i32⟩
  | .hbm, ⟨58, _⟩ => ⟨S_, .f32⟩
  | .hbm, ⟨59, _⟩ => ⟨S1253376, .f32⟩
  | .hbm, ⟨60, _⟩ => ⟨S1253376x1, .f32⟩
  | .hbm, ⟨61, _⟩ => ⟨S1253376x64, .f32⟩
  | .hbm, ⟨62, _⟩ => ⟨S1250000x64, .f32⟩
  | .hbm, ⟨63, _⟩ => ⟨S_, .f32⟩
  | .hbm, ⟨64, _⟩ => ⟨S200000x64, .f32⟩
  | .hbm, ⟨65, _⟩ => ⟨S1250000x1, .i32⟩
  | .hbm, ⟨66, _⟩ => ⟨S200000x64, .f32⟩
  | .hbm, ⟨67, _⟩ => ⟨S1x500000, .i32⟩
  | .hbm, ⟨68, _⟩ => ⟨S500000, .i32⟩
  | .hbm, ⟨69, _⟩ => ⟨S1x500000, .i32⟩
  | .hbm, ⟨70, _⟩ => ⟨S500000, .i32⟩
  | .hbm, ⟨71, _⟩ => ⟨S_, .i32⟩
  | .hbm, ⟨72, _⟩ => ⟨S500000, .i32⟩
  | .hbm, ⟨73, _⟩ => ⟨S500000, .i1⟩
  | .hbm, ⟨74, _⟩ => ⟨S_, .i32⟩
  | .hbm, ⟨75, _⟩ => ⟨S500000, .i32⟩
  | .hbm, ⟨76, _⟩ => ⟨S500000, .i32⟩
  | .hbm, ⟨77, _⟩ => ⟨S500000, .i32⟩
  | .hbm, ⟨78, _⟩ => ⟨S500000x1, .i32⟩
  | .hbm, ⟨79, _⟩ => ⟨S500000x64, .f32⟩
  | .hbm, ⟨80, _⟩ => ⟨S_, .i32⟩
  | .hbm, ⟨81, _⟩ => ⟨S500000, .i32⟩
  | .hbm, ⟨82, _⟩ => ⟨S500000, .i1⟩
  | .hbm, ⟨83, _⟩ => ⟨S_, .i32⟩
  | .hbm, ⟨84, _⟩ => ⟨S500000, .i32⟩
  | .hbm, ⟨85, _⟩ => ⟨S500000, .i32⟩
  | .hbm, ⟨86, _⟩ => ⟨S500000, .i32⟩
  | .hbm, ⟨87, _⟩ => ⟨S500000x1, .i32⟩
  | .hbm, ⟨88, _⟩ => ⟨S500000x64, .f32⟩
  | .hbm, ⟨89, _⟩ => ⟨S_, .i32⟩
  | .hbm, ⟨90, _⟩ => ⟨S_, .f32⟩
  | .hbm, ⟨91, _⟩ => ⟨S507904x64, .f32⟩
  | .hbm, ⟨92, _⟩ => ⟨S_, .i32⟩
  | .hbm, ⟨93, _⟩ => ⟨S_, .f32⟩
  | .hbm, ⟨94, _⟩ => ⟨S507904x64, .f32⟩
  | .hbm, ⟨95, _⟩ => ⟨S1x507904, .f32⟩
  | .hbm, ⟨96, _⟩ => ⟨S507904, .f32⟩
  | .hbm, ⟨97, _⟩ => ⟨S500000, .f32⟩
  | .local _ .vmem, ⟨0, _⟩ => ⟨S8192x64, .f32⟩
  | .local _ .vmem, ⟨1, _⟩ => ⟨S8192x64, .f32⟩
  | .local _ .vmem, ⟨2, _⟩ => ⟨S8192x1, .f32⟩
  | .local _ .vmem, ⟨3, _⟩ => ⟨S8192x1, .f32⟩
  | .local _ .vmem, ⟨4, _⟩ => ⟨S8192x64, .f32⟩
  | .local _ .vmem, ⟨5, _⟩ => ⟨S8192x64, .f32⟩
  | .local _ .vmem, ⟨6, _⟩ => ⟨S16384x64, .f32⟩
  | .local _ .vmem, ⟨7, _⟩ => ⟨S16384x64, .f32⟩
  | .local _ .vmem, ⟨8, _⟩ => ⟨S16384x64, .f32⟩
  | .local _ .vmem, ⟨9, _⟩ => ⟨S16384x64, .f32⟩
  | .local _ .vmem, ⟨10, _⟩ => ⟨S1x16384, .f32⟩
  | .local _ .vmem, ⟨11, _⟩ => ⟨S1x16384, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_7 : Ref sig .tc := ⟨.hbm, 45, rfl⟩
abbrev main_v29 : Ref sig .tc := ⟨.hbm, 46, rfl⟩
abbrev main_v30 : Ref sig .tc := ⟨.hbm, 47, rfl⟩
abbrev main_c_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_9 : Ref sig .tc := ⟨.hbm, 54, rfl⟩
abbrev main_call1_v0 : Ref sig .tc := ⟨.hbm, 55, rfl⟩
abbrev main_v36 : Ref sig .tc := ⟨.hbm, 56, rfl⟩
abbrev main_c_10 : Ref sig .tc := ⟨.hbm, 57, rfl⟩
abbrev main_call2_v0 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_11 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_12 : Ref sig .tc := ⟨.hbm, 71, rfl⟩
abbrev main_v48 : Ref sig .tc := ⟨.hbm, 72, rfl⟩
abbrev main_v49 : Ref sig .tc := ⟨.hbm, 73, rfl⟩
abbrev main_c_13 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_14 : Ref sig .tc := ⟨.hbm, 80, rfl⟩
abbrev main_v55 : Ref sig .tc := ⟨.hbm, 81, rfl⟩
abbrev main_v56 : Ref sig .tc := ⟨.hbm, 82, rfl⟩
abbrev main_c_15 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_16 : Ref sig .tc := ⟨.hbm, 89, rfl⟩
abbrev main_call3_v0 : Ref sig .tc := ⟨.hbm, 90, rfl⟩
abbrev main_v62 : Ref sig .tc := ⟨.hbm, 91, rfl⟩
abbrev main_c_17 : Ref sig .tc := ⟨.hbm, 92, rfl⟩
abbrev main_call4_v0 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![153], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![31], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S16384x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16384x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S200000 : S_.BroadcastsInDim S200000 (![] : Fin 0 → Fin S200000.rank)
  bcast_S1250000_S1250000x1_0 : S1250000.BroadcastsInDim S1250000x1 (![0] : Fin 1 → Fin S1250000x1.rank)
  pads_S1250000x64_S1253376x64_033760_000 : S1250000x64.Pads (![0, 0] : Fin 2 → Nat) ![3376, 0] ![0, 0] S1253376x64
  h_S_ : 0 < S_.numel
  pads_S1250000_S1253376_033760 : S1250000.Pads (![0] : Fin 1 → Nat) ![3376] ![0] S1253376
  shapeCasts_S1253376_S1253376x1 : S1253376.ShapeCasts S1253376x1
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x64 : S8192x1.Broadcasts S8192x64
  slices_S1253376x64_S1250000x64_0_0 : S1253376x64.Slices ![0, 0] S1250000x64
  bcast_S_S200000x64 : S_.BroadcastsInDim S200000x64 (![] : Fin 0 → Fin S200000x64.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  pads_S500000x64_S507904x64_079040_000 : S500000x64.Pads (![0, 0] : Fin 2 → Nat) ![7904, 0] ![0, 0] S507904x64
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  reduces_S16384x64_S16384 : S16384x64.Reduces [1] S16384
  shapeCasts_S16384_S16384x1 : S16384.ShapeCasts S16384x1
  transposes_S16384x1_p1_0_S1x16384 : S16384x1.Transposes [1, 0] S1x16384
  inb_S1x16384_S1x16384_0_0 : ∀ a, (![0, 0] : Fin 2 → Nat) a + S1x16384.size a ≤ S1x16384.size a
  h_S1x16384 : 0 < S1x16384.numel
  shapeCasts_S1x507904_S507904 : S1x507904.ShapeCasts S507904
  slices_S507904_S500000_0 : S507904.Slices ![0] S500000
  scatter_S200000_S1250000x1_S1250000_n_0_0_1_wf : ScatterDims.WF S200000 S1250000x1 S1250000 [] [0] [0] 1
  gather_S200000_S1250000x1_S1250000_n_0_n_n_0_1_1_wf : GatherDims.WF S200000 S1250000x1 S1250000 [] [0] [] [0] [] 1 ![1]
  gather_S200000x64_S1250000x1_S1250000x64_1_0_n_n_0_1_164_wf : GatherDims.WF S200000x64 S1250000x1 S1250000x64 [1] [0] [] [0] [] 1 ![1, 64]
  scatter_S200000x64_S1250000x1_S1250000x64_1_0_0_1_wf : ScatterDims.WF S200000x64 S1250000x1 S1250000x64 [1] [0] [0] 1
  gather_S200000x64_S500000x1_S500000x64_1_0_n_n_0_1_164_wf : GatherDims.WF S200000x64 S500000x1 S500000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S1253376x64.size a
  hwx0_0 : ∀ i : grid0.Coords, EltTy.bits .f32 = 32 ∨ (Rect.block (s := S1253376x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S1253376x1.size a
  hwx0_1 : ∀ i : grid0.Coords, EltTy.bits .f32 = 32 ∨ (Rect.block (s := S1253376x1) S8192x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S1253376x64.size a
  hwx0_2 : ∀ i : grid0.Coords, EltTy.bits .f32 = 32 ∨ (Rect.block (s := S1253376x64) S8192x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16384x64.size a ≤ S507904x64.size a
  hwx1_0 : ∀ i : grid1.Coords, EltTy.bits .f32 = 32 ∨ (Rect.block (s := S507904x64) S16384x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16384x64.size a ≤ S507904x64.size a
  hwx1_1 : ∀ i : grid1.Coords, EltTy.bits .f32 = 32 ∨ (Rect.block (s := S507904x64) S16384x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16384.size a ≤ S1x507904.size a
  hwx1_2 : ∀ i : grid1.Coords, EltTy.bits .f32 = 32 ∨ (Rect.block (s := S1x507904) S1x16384.size (cc1_transform_2 i) (hinb1_2 i)).WholeWords (EltTy.packing .f32)

variable [Facts₀]

def scatter_S200000_S1250000x1_S1250000_n_0_0_1 : ScatterDims S200000 S1250000x1 S1250000 where
  updateWindowDims := []
  insertedWindowDims := [0]
  scatterDimsToOperandDims := [0]
  indexVectorDim := 1
  wf := scatter_S200000_S1250000x1_S1250000_n_0_0_1_wf
def gather_S200000_S1250000x1_S1250000_n_0_n_n_0_1_1 : GatherDims S200000 S1250000x1 S1250000 where
  offsetDims := []
  collapsedSliceDims := [0]
  operandBatchingDims := []
  startIndicesBatchingDims := []
  startIndexMap := [0]
  indexVectorDim := 1
  sliceSizes := ![1]
  wf := gather_S200000_S1250000x1_S1250000_n_0_n_n_0_1_1_wf
def gather_S200000x64_S1250000x1_S1250000x64_1_0_n_n_0_1_164 : GatherDims S200000x64 S1250000x1 S1250000x64 where
  offsetDims := [1]
  collapsedSliceDims := [0]
  operandBatchingDims := []
  startIndicesBatchingDims := []
  startIndexMap := [0]
  indexVectorDim := 1
  sliceSizes := ![1, 64]
  wf := gather_S200000x64_S1250000x1_S1250000x64_1_0_n_n_0_1_164_wf
def scatter_S200000x64_S1250000x1_S1250000x64_1_0_0_1 : ScatterDims S200000x64 S1250000x1 S1250000x64 where
  updateWindowDims := [1]
  insertedWindowDims := [0]
  scatterDimsToOperandDims := [0]
  indexVectorDim := 1
  wf := scatter_S200000x64_S1250000x1_S1250000x64_1_0_0_1_wf
def gather_S200000x64_S500000x1_S500000x64_1_0_n_n_0_1_164 : GatherDims S200000x64 S500000x1 S500000x64 where
  offsetDims := [1]
  collapsedSliceDims := [0]
  operandBatchingDims := []
  startIndicesBatchingDims := []
  startIndexMap := [0]
  indexVectorDim := 1
  sliceSizes := ![1, 64]
  wf := gather_S200000x64_S500000x1_S500000x64_1_0_n_n_0_1_164_wf

abbrev win0_0 : Pipeline.Window sig grid0 :=
  Pipeline.Window.ofSpec (Memref.whole main_v36) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v62) S16384x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v63) S16384x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v64) S1x16384.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S200000x64 : Shape := ⟨2, ![200000, 64]⟩
abbrev S64x64 : Shape := ⟨2, ![64, 64]⟩
abbrev S64 : Shape := ⟨1, ![64]⟩
abbrev S2x500000 : Shape := ⟨2, ![2, 500000]⟩
abbrev S2x1250000 : Shape := ⟨2, ![2, 1250000]⟩
abbrev S1x64 : Shape := ⟨2, ![1, 64]⟩
abbrev S1x1250000 : Shape := ⟨2, ![1, 1250000]⟩
abbrev S1250000 : Shape := ⟨1, ![1250000]⟩
abbrev S_ : Shape := ⟨0, ![]⟩
abbrev S200000 : Shape := ⟨1, ![200000]⟩
abbrev S1250000x1 : Shape := ⟨2, ![1250000, 1]⟩
abbrev S1250000x64 : Shape := ⟨2, ![1250000, 64]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩

abbrev nBuf : Space → Nat
  | .hbm => 91
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S64x64, .f32⟩
  | .hbm, ⟨2, _⟩ => ⟨S64, .f32⟩
  | .hbm, ⟨3, _⟩ => ⟨S2x500000, .i32⟩
  | .hbm, ⟨4, _⟩ => ⟨S2x1250000, .i32⟩
  | .hbm, ⟨5, _⟩ => ⟨S64x64, .f32⟩
  | .hbm, ⟨6, _⟩ => ⟨S200000x64, .f32⟩
  | .hbm, ⟨7, _⟩ => ⟨S1x64, .f32⟩
  | .hbm, ⟨8, _⟩ => ⟨S200000x64, .f32⟩
  | .hbm, ⟨9, _⟩ => ⟨S200000x64, .f32⟩
  | .hbm, ⟨10, _⟩ => ⟨S1x1250000, .i32⟩
  | .hbm, ⟨11, _⟩ => ⟨S1250000, .i32⟩
  | .hbm, ⟨12, _⟩ => ⟨S1x1250000, .i32⟩
  | .hbm, ⟨13, _⟩ => ⟨S1250000, .i32⟩
  | .hbm, ⟨14, _⟩ => ⟨S_, .f32⟩
  | .hbm, ⟨15, _⟩ => ⟨S1250000, .f32⟩
  | .hbm, ⟨16, _⟩ => ⟨S_, .f32⟩
  | .hbm, ⟨17, _⟩ => ⟨S200000, .f32⟩
  | .hbm, ⟨18, _⟩ => ⟨S1250000x1, .i32⟩
  | .hbm, ⟨19, _⟩ => ⟨S200000, .f32⟩
  | .hbm, ⟨20, _⟩ => ⟨S_, .f32⟩
  | .hbm, ⟨21, _⟩ => ⟨S200000, .f32⟩
  | .hbm, ⟨22, _⟩ => ⟨S200000, .i1⟩
  | .hbm, ⟨23, _⟩ => ⟨S_, .f32⟩
  | .hbm, ⟨24, _⟩ => ⟨S200000, .f32⟩
  | .hbm, ⟨25, _⟩ => ⟨S200000, .f32⟩
  | .hbm, ⟨26, _⟩ => ⟨S200000, .f32⟩
  | .hbm, ⟨27, _⟩ => ⟨S_, .f32⟩
  | .hbm, ⟨28, _⟩ => ⟨S_, .f32⟩
  | .hbm, ⟨29, _⟩ => ⟨S200000, .f32⟩
  | .hbm, ⟨30, _⟩ => ⟨S200000, .f32⟩
  | .hbm, ⟨31, _⟩ => ⟨S_, .i32⟩
  | .hbm, ⟨32, _⟩ => ⟨S1250000, .i32⟩
  | .hbm, ⟨33, _⟩ => ⟨S1250000, .i1⟩
  | .hbm, ⟨34, _⟩ => ⟨S_, .i32⟩
  | .hbm, ⟨35, _⟩ => ⟨S1250000, .i32⟩
  | .hbm, ⟨36, _⟩ => ⟨S1250000, .i32⟩
  | .hbm, ⟨37, _⟩ => ⟨S1250000, .i32⟩
  | .hbm, ⟨38, _⟩ => ⟨S1250000x1, .i32⟩
  | .hbm, ⟨39, _⟩ => ⟨S1250000, .f32⟩
  | .hbm, ⟨40, _⟩ => ⟨S_, .i32⟩
  | .hbm, ⟨41, _⟩ => ⟨S1250000, .i32⟩
  | .hbm, ⟨42, _⟩ => ⟨S1250000, .i1⟩
  | .hbm, ⟨43, _⟩ => ⟨S_, .i32⟩
  | .hbm, ⟨44, _⟩ => ⟨S1250000, .i32⟩
  | .hbm, ⟨45, _⟩ => ⟨S1250000, .i32⟩
  | .hbm, ⟨46, _⟩ => ⟨S1250000, .i32⟩
  | .hbm, ⟨47, _⟩ => ⟨S1250000x1, .i32⟩
  | .hbm, ⟨48, _⟩ => ⟨S1250000, .f32⟩
  | .hbm, ⟨49, _⟩ => ⟨S1250000, .f32⟩
  | .hbm, ⟨50, _⟩ => ⟨S1250000x1, .f32⟩
  | .hbm, ⟨51, _⟩ => ⟨S_, .i32⟩
  | .hbm, ⟨52, _⟩ => ⟨S1250000, .i32⟩
  | .hbm, ⟨53, _⟩ => ⟨S1250000, .i1⟩
  | .hbm, ⟨54, _⟩ => ⟨S_, .i32⟩
  | .hbm, ⟨55, _⟩ => ⟨S1250000, .i32⟩
  | .hbm, ⟨56, _⟩ => ⟨S1250000, .i32⟩
  | .hbm, ⟨57, _⟩ => ⟨S1250000, .i32⟩
  | .hbm, ⟨58, _⟩ => ⟨S1250000x1, .i32⟩
  | .hbm, ⟨59, _⟩ => ⟨S1250000x64, .f32⟩
  | .hbm, ⟨60, _⟩ => ⟨S1250000x64, .f32⟩
  | .hbm, ⟨61, _⟩ => ⟨S1250000x64, .f32⟩
  | .hbm, ⟨62, _⟩ => ⟨S_, .f32⟩
  | .hbm, ⟨63, _⟩ => ⟨S200000x64, .f32⟩
  | .hbm, ⟨64, _⟩ => ⟨S1250000x1, .i32⟩
  | .hbm, ⟨65, _⟩ => ⟨S200000x64, .f32⟩
  | .hbm, ⟨66, _⟩ => ⟨S1x500000, .i32⟩
  | .hbm, ⟨67, _⟩ => ⟨S500000, .i32⟩
  | .hbm, ⟨68, _⟩ => ⟨S_, .i32⟩
  | .hbm, ⟨69, _⟩ => ⟨S500000, .i32⟩
  | .hbm, ⟨70, _⟩ => ⟨S500000, .i1⟩
  | .hbm, ⟨71, _⟩ => ⟨S_, .i32⟩
  | .hbm, ⟨72, _⟩ => ⟨S500000, .i32⟩
  | .hbm, ⟨73, _⟩ => ⟨S500000, .i32⟩
  | .hbm, ⟨74, _⟩ => ⟨S500000, .i32⟩
  | .hbm, ⟨75, _⟩ => ⟨S500000x1, .i32⟩
  | .hbm, ⟨76, _⟩ => ⟨S500000x64, .f32⟩
  | .hbm, ⟨77, _⟩ => ⟨S1x500000, .i32⟩
  | .hbm, ⟨78, _⟩ => ⟨S500000, .i32⟩
  | .hbm, ⟨79, _⟩ => ⟨S_, .i32⟩
  | .hbm, ⟨80, _⟩ => ⟨S500000, .i32⟩
  | .hbm, ⟨81, _⟩ => ⟨S500000, .i1⟩
  | .hbm, ⟨82, _⟩ => ⟨S_, .i32⟩
  | .hbm, ⟨83, _⟩ => ⟨S500000, .i32⟩
  | .hbm, ⟨84, _⟩ => ⟨S500000, .i32⟩
  | .hbm, ⟨85, _⟩ => ⟨S500000, .i32⟩
  | .hbm, ⟨86, _⟩ => ⟨S500000x1, .i32⟩
  | .hbm, ⟨87, _⟩ => ⟨S500000x64, .f32⟩
  | .hbm, ⟨88, _⟩ => ⟨S500000x64, .f32⟩
  | .hbm, ⟨89, _⟩ => ⟨S_, .f32⟩
  | .hbm, ⟨90, _⟩ => ⟨S500000, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_10 : Ref sig .tc := ⟨.hbm, 68, rfl⟩
abbrev main_v49 : Ref sig .tc := ⟨.hbm, 69, rfl⟩
abbrev main_v50 : Ref sig .tc := ⟨.hbm, 70, rfl⟩
abbrev main_c_11 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_12 : Ref sig .tc := ⟨.hbm, 79, rfl⟩
abbrev main_v58 : Ref sig .tc := ⟨.hbm, 80, rfl⟩
abbrev main_v59 : Ref sig .tc := ⟨.hbm, 81, rfl⟩
abbrev main_c_13 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_14 : Ref sig .tc := ⟨.hbm, 89, rfl⟩
abbrev main_v66 : Ref sig .tc := ⟨.hbm, 90, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S200000 : S_.BroadcastsInDim S200000 (![] : Fin 0 → Fin S200000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S200000x64 : S_.BroadcastsInDim S200000x64 (![] : Fin 0 → Fin S200000x64.rank)
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  reducesTo_S500000x64_S500000_d1 : S500000x64.ReducesTo [1] S500000
  h_S_ : 0 < S_.numel
  dot_S200000x64_S64x64_S200000x64_1_0_0_1_n_n_wf : DotDims.WF S200000x64 S64x64 S200000x64 [1] [0] [0] [1] [] []
  scatter_S200000_S1250000x1_S1250000_n_0_0_1_wf : ScatterDims.WF S200000 S1250000x1 S1250000 [] [0] [0] 1
  gather_S200000_S1250000x1_S1250000_n_0_n_n_0_1_1_wf : GatherDims.WF S200000 S1250000x1 S1250000 [] [0] [] [0] [] 1 ![1]
  gather_S200000x64_S1250000x1_S1250000x64_1_0_n_n_0_1_164_wf : GatherDims.WF S200000x64 S1250000x1 S1250000x64 [1] [0] [] [0] [] 1 ![1, 64]
  scatter_S200000x64_S1250000x1_S1250000x64_1_0_0_1_wf : ScatterDims.WF S200000x64 S1250000x1 S1250000x64 [1] [0] [0] 1
  gather_S200000x64_S500000x1_S500000x64_1_0_n_n_0_1_164_wf : GatherDims.WF S200000x64 S500000x1 S500000x64 [1] [0] [] [0] [] 1 ![1, 64]

variable [Facts₀]

def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def scatter_S200000_S1250000x1_S1250000_n_0_0_1 : ScatterDims S200000 S1250000x1 S1250000 where
  updateWindowDims := []
  insertedWindowDims := [0]
  scatterDimsToOperandDims := [0]
  indexVectorDim := 1
  wf := scatter_S200000_S1250000x1_S1250000_n_0_0_1_wf
def gather_S200000_S1250000x1_S1250000_n_0_n_n_0_1_1 : GatherDims S200000 S1250000x1 S1250000 where
  offsetDims := []
  collapsedSliceDims := [0]
  operandBatchingDims := []
  startIndicesBatchingDims := []
  startIndexMap := [0]
  indexVectorDim := 1
  sliceSizes := ![1]
  wf := gather_S200000_S1250000x1_S1250000_n_0_n_n_0_1_1_wf
def gather_S200000x64_S1250000x1_S1250000x64_1_0_n_n_0_1_164 : GatherDims S200000x64 S1250000x1 S1250000x64 where
  offsetDims := [1]
  collapsedSliceDims := [0]
  operandBatchingDims := []
  startIndicesBatchingDims := []
  startIndexMap := [0]
  indexVectorDim := 1
  sliceSizes := ![1, 64]
  wf := gather_S200000x64_S1250000x1_S1250000x64_1_0_n_n_0_1_164_wf
def scatter_S200000x64_S1250000x1_S1250000x64_1_0_0_1 : ScatterDims S200000x64 S1250000x1 S1250000x64 where
  updateWindowDims := [1]
  insertedWindowDims := [0]
  scatterDimsToOperandDims := [0]
  indexVectorDim := 1
  wf := scatter_S200000x64_S1250000x1_S1250000x64_1_0_0_1_wf
def gather_S200000x64_S500000x1_S500000x64_1_0_n_n_0_1_164 : GatherDims S200000x64 S500000x1 S500000x64 where
  offsetDims := [1]
  collapsedSliceDims := [0]
  operandBatchingDims := []
  startIndicesBatchingDims := []
  startIndexMap := [0]
  indexVectorDim := 1
  sliceSizes := ![1, 64]
  wf := gather_S200000x64_S500000x1_S500000x64_1_0_n_n_0_1_164_wf

class Facts : Prop extends Facts₀ where

variable [Facts]
-- ==== Proof.KernelRun.lean ====
/-
  The kernel's program run, with its result named.

  @main is fourteen segments: host stretches around the two regions. Every segment is entered with all the device's
  unscoped buffers at its boundary's contents and left with them at the next boundary's (a host stretch: the fold of its
  operations' results; a region: its arrays at what its write-backs leave, everything else as entered). So every weakly
  fair execution terminates with every unscoped buffer at the LAST boundary's contents: the five argument arrays as
  launched — each read back through the boundaries, no operation writing one — and the result buffer at the last
  boundary's contents there, which the stage module reads as a function of the arguments.
-/
import proofs.«165329_j64244120814278_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v66) = W14 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v66 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c)⟩)

end Cert.KernelIdeal.Whole

end
-- ==== Proof.ScaleRegion.lean ====
/-
  The scaling region as ONE function of its two input arrays.

  The first kernel runs over 153 blocks of 8192 edge rows. At a block it loads 8192 rows of 64 features and the
  8192 per-row weights (a column), spreads each weight along its row and multiplies: the stored block is
  `feature[r, c] · weight[r, 0]`. Every block sits at rows `8192·t … 8192·t + 8191` of all three arrays (the three index maps
  send point `t` to block row `t`, column block 0), so the blocks are restrictions of one whole-array function,
  `rowScaled a b (r, c) = a (r, c) · b (r, 0)`, and since 153 · 8192 = 1253376 they cover the output array: after the
  region the output array IS `rowScaled` of the two input arrays as the region found them.
-/
import proofs.«165329_j64244120814278_2_alg».proof.Proof.Gen.KernelIdeal.Frame
import Idealize.ShloMosaic.Lib.Pipeline.Value
import Idealize.ShloMosaic.Lib.ValueIdx

noncomputable section

namespace Cert.KernelIdeal.Scale

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-- Entry `(r, c)` of the feature array times row `r`'s one weight. -/
def rowScaled (a : S1253376x64.Idx → Elt F .f32) (b : S1253376x1.Idx → Elt F .f32) : S1253376x64.Idx → Elt F .f32 :=
  fun i => FloatOps.mulf (a i) (b (ix2 (⟨(i 0).val, (i 0).isLt⟩ : Fin 1253376) (0 : Fin 1)))

theorem zero_offsets : (![0, 0] : Fin 2 → Nat) = fun _ => 0 := funext fun a => by fin_cases a <;> rfl

/-- The stored value at `(r, c)` of a block: the loaded feature there times the loaded weight of row `r`
    (the two shape casts are identities; the broadcast of the column reads its row's one entry). -/
theorem payload_apply (x0 : Vec F S8192x64 .f32) (x1 : Vec F S8192x1 .f32) (j : S8192x64.Idx) :
    k0_pay1 x0 x1 j = FloatOps.mulf (x0 j) (x1 (ix2 (⟨(j 0).val, (j 0).isLt⟩ : Fin 8192) (0 : Fin 1))) := by
  unfold k0_pay1
  show FloatOps.mulf (shapeCast S8192x64 x0 shapeCasts_S8192x64_S8192x64 j)
      (broadcastTo S8192x64 (shapeCast S8192x1 x1 shapeCasts_S8192x1_S8192x1) broadcasts_S8192x1_S8192x64 j) = _
  rw [shapeCast_self, shapeCast_self]
  refine congrArg (FloatOps.mulf (x0 j)) ?_
  exact broadcastTo_apply x1 broadcasts_S8192x1_S8192x64 j _ (fun a => match a with
    | ⟨0, _⟩ => by show (j 0).val = if (8192 : Nat) = 1 then 0 else (j 0).val; rw [if_neg (by decide)]
    | ⟨1, _⟩ => by show 0 = if (1 : Nat) = 1 then 0 else (j 1).val; rw [if_pos rfl])

/-- The stored block as one function of the two loaded blocks. -/
theorem payload_eq (x0 : Vec F S8192x64 .f32) (x1 : Vec F S8192x1 .f32) :
    k0_pay1 x0 x1 = fun j => FloatOps.mulf (x0 j) (x1 (ix2 (⟨(j 0).val, (j 0).isLt⟩ : Fin 8192) (0 : Fin 1))) :=
  funext (payload_apply x0 x1)

/-- The three index maps over the grid: every window is at block row `t`'s own row block and at column block 0. -/
theorem index_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 152 :=
  (by decide +kernel : ∀ t : Fin grid0.N, _)

/-- Every row block of the output is some point's. -/
theorem index_onto : ∀ q : Fin 153, ∃ t : Fin cfg0.N, win0_2.index t = ![q.val, 0] :=
  (by decide +kernel : ∀ q : Fin 153, ∃ t : Fin grid0.N, win0_2.index t = ![q.val, 0])

/-- What point `t` writes back is block `t` of `rowScaled` of the two input arrays. -/
theorem flushed_eq (c : Dev nD) (t : Fin cfg0.N) :
    (dat0 V c).flushed 2 t = ((cfg0.win 2).blk t).view.read (Elt F) (rowScaled (V c main_v36) (V c main_v38)) := by
  show (cfg0.win 2).cut (grid0.coords t) ((dat0 V c).after 2 t) = _
  rw [after0_2]
  unfold out0_2
  rw [View.canon_unit_zero zero_offsets]
  simp only [View.ld_unit_zero (S := S8192x64) zero_offsets, View.ld_unit_zero (S := S8192x1) zero_offsets]
  rw [payload_eq]
  obtain ⟨e0, e1, e2, e3, e4, e5⟩ := index_facts t
  funext j
  show FloatOps.mulf (V c main_v36 (((cfg0.win 0).blk t).view.emb j))
      (V c main_v38 (((cfg0.win 1).blk t).view.emb (ix2 (⟨(j 0).val, (j 0).isLt⟩ : Fin 8192) (0 : Fin 1))))
    = FloatOps.mulf (V c main_v36 (((cfg0.win 2).blk t).view.emb j))
      (V c main_v38 (ix2 (⟨((((cfg0.win 2).blk t).view.emb j) 0).val, ((((cfg0.win 2).blk t).view.emb j) 0).isLt⟩ : Fin 1253376) (0 : Fin 1)))
  have h0 : ((cfg0.win 0).blk t).view.emb j = ((cfg0.win 2).blk t).view.emb j := by
    funext a; apply Fin.ext
    match a with
    | ⟨0, _⟩ => show win0_0.index t (0 : Fin 2) * 8192 + 1 * (j 0).val = win0_2.index t (0 : Fin 2) * 8192 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (ix2 (⟨(j 0).val, (j 0).isLt⟩ : Fin 8192) (0 : Fin 1))
      = ix2 (⟨((((cfg0.win 2).blk t).view.emb j) 0).val, ((((cfg0.win 2).blk t).view.emb j) 0).isLt⟩ : Fin 1253376) (0 : Fin 1) := by
    funext a; apply Fin.ext
    match a with
    | ⟨0, _⟩ => show win0_1.index t (0 : Fin 2) * 8192 + 1 * (j 0).val = win0_2.index t (0 : Fin 2) * 8192 + 1 * (j 0).val; omega
    | ⟨1, _⟩ => show win0_1.index t (1 : Fin 2) * 1 + 1 * 0 = 0; omega
  rw [h0, h1]

/-- An index of the output array is in point `t`'s block iff each coordinate is in the block's range on its axis. -/
theorem mem_block (t : Fin cfg0.N) (i : S1253376x64.Idx) :
    i ∈ ((cfg0.win 2).blk t).view.set ↔ ∀ a : Fin 2, win0_2.index t a * S8192x64.size a ≤ (i a).val ∧ (i a).val < win0_2.index t a * S8192x64.size a + S8192x64.size a := by
  show i ∈ ((View.whole main_v39).slice (win0_2.rect t)).set ↔ _
  rw [View.set_slice_whole, Rect.mem_set_unit]
  exact Iff.rfl

/-- Every index of the output array is in some point's block: row `r` is in block `r / 8192`. -/
theorem covered (i : S1253376x64.Idx) :
    ∃ t : Fin cfg0.N, (cfg0.win 2).flush t = true ∧ i ∈ ((cfg0.win 2).blk t).view.set := by
  have hi0 : (i 0).val < 1253376 := (i 0).isLt
  have hi1 : (i 1).val < 64 := (i 1).isLt
  obtain ⟨t, ht⟩ := index_onto ⟨(i 0).val / 8192, by omega⟩
  have q0 : win0_2.index t (0 : Fin 2) = (i 0).val / 8192 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 64 ≤ (i 1).val ∧ (i 1).val < win0_2.index t (1 : Fin 2) * 64 + 64; omega

/-- THE OUTPUT ARRAY AFTER THE REGION: `rowScaled` of the two input arrays as the region found them. -/
theorem final (c : Dev nD) : (dat0 V c).arrAt 2 cfg0.N = rowScaled (V c main_v36) (V c main_v38) :=
  (dat0 V c).arrAt_eq_of_cover 2 (rowScaled (V c main_v36) (V c main_v38)) (fun t _ => flushed_eq V c t) covered

end Cert.KernelIdeal.Scale

end
-- ==== Proof.ScoreRegion.lean ====
/-
  The scoring region as ONE function of its two input arrays, at the exact values.

  The second kernel runs over 31 blocks of 16384 edges. At a block it loads the 16384 × 64 rows of both operands,
  multiplies them entry by entry, sums each row over its 64 lanes, and stores the 16384 sums as one ROW (the column of
  sums transposed). With exact arithmetic a lane sum into the zero accumulator is the plain finite sum, so the stored
  row is `∑ k, a[r, k] · b[r, k]` at lane `r`. Point `t` reads row block `t` of both inputs and writes lanes
  `16384·t … 16384·t + 16383` of the one output row; 31 · 16384 = 507904 lanes cover it. After the region the output
  array is `rowDots a b (0, r) = ∑ k, a (r, k) · b (r, k)` of the input arrays as the region found them.
-/
import proofs.«165329_j64244120814278_2_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Score

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- Lane `r` of the one output row: the dot product of row `r` of the two arrays. -/
def rowDots (a b : S507904x64.Idx → EReal) : S1x507904.Idx → EReal :=
  fun i => ∑ k : Fin 64, a (ix2 (⟨(i 1).val, (i 1).isLt⟩ : Fin 507904) k) * b (ix2 (⟨(i 1).val, (i 1).isLt⟩ : Fin 507904) k)

theorem zero_offsets : (![0, 0] : Fin 2 → Nat) = fun _ => 0 := funext fun a => by fin_cases a <;> rfl

/-- The sum over the 64 lanes of the products of two arrays read along two families of indices. -/
def pairSum (a b : S507904x64.Idx → EReal) (f g : Fin 64 → S507904x64.Idx) : EReal := ∑ k : Fin 64, a (f k) * b (g k)

/-- A lane sum of a 16384 × 64 block into the zero accumulator, at row `r`: the sum over the 64 lanes. -/
theorem laneSum_apply (v : FVec Ideal S16384x64 .f32) (hacc : (0x00000000#32 : BitVec 32) = 0x00000000#32) (r : Fin 16384) :
    multiReduction .add [1] S16384 v 0x00000000#32 reduces_S16384x64_S16384 (.inl rfl) hacc (ix1 r)
      = ∑ k : Fin 64, v (ix2 r k) := by
  refine (Ideal.multiReduction_add_single v 0x00000000#32 reduces_S16384x64_S16384 (.inl rfl) hacc (ix1 r)).trans ?_
  refine Finset.sum_congr rfl fun k _ => congrArg v ?_
  funext a; match a with | ⟨0, _⟩ => rfl | ⟨1, _⟩ => rfl

/-- The stored row at lane `r`: the sum over the lanes of the products of the two loaded blocks' row `r`
    (the transpose reads the column of sums at `(r, 0)`; the cast to a column reads the sums at `r`). -/
theorem payload_apply (x0 x1 : Vec Ideal S16384x64 .f32) (j : S1x16384.Idx) :
    k1_pay1 x0 x1 j = ∑ k : Fin 64, x0 (ix2 (⟨(j 1).val, (j 1).isLt⟩ : Fin 16384) k) * x1 (ix2 (⟨(j 1).val, (j 1).isLt⟩ : Fin 16384) k) := by
  unfold k1_pay1
  dsimp only
  rw [shapeCast_self, shapeCast_self]
  refine (transpose_apply [1, 0] _ transposes_S16384x1_p1_0_S1x16384 j
    (ix2 (⟨(j 1).val, (j 1).isLt⟩ : Fin 16384) (⟨(j 0).val, (j 0).isLt⟩ : Fin 1)) (fun b => match b with
      | ⟨0, _⟩ => rfl
      | ⟨1, _⟩ => rfl)).trans ?_
  refine (shapeCast_apply _ shapeCasts_S16384_S16384x1 _ (ix1 (⟨(j 1).val, (j 1).isLt⟩ : Fin 16384)) (by
    have h0 : (j 0).val < 1 := (j 0).isLt
    rw [Shape.rowMajor_val_one, Shape.rowMajor_val_two]
    show (j 1).val = (j 1).val * 1 + (j 0).val
    omega)).trans ?_
  exact laneSum_apply (mulf x0 x1) rfl _

/-- The stored row as one function of the two loaded blocks. -/
theorem payload_eq (x0 x1 : Vec Ideal S16384x64 .f32) :
    k1_pay1 x0 x1 = fun j => ∑ k : Fin 64, x0 (ix2 (⟨(j 1).val, (j 1).isLt⟩ : Fin 16384) k) * x1 (ix2 (⟨(j 1).val, (j 1).isLt⟩ : Fin 16384) k) :=
  funext (payload_apply x0 x1)

/-- The three index maps over the grid: both inputs are at row block `t`'s own block, column block 0; the output row is
    at row block 0, lane block that same number. -/
theorem index_facts : ∀ t : Fin cfg1.N, win1_0.index t (0 : Fin 2) = win1_2.index t (1 : Fin 2)
    ∧ win1_0.index t (1 : Fin 2) = 0
    ∧ win1_1.index t (0 : Fin 2) = win1_2.index t (1 : Fin 2)
    ∧ win1_1.index t (1 : Fin 2) = 0
    ∧ win1_2.index t (0 : Fin 2) = 0
    ∧ win1_2.index t (1 : Fin 2) ≤ 30 :=
  (by decide +kernel : ∀ t : Fin grid1.N, _)

/-- Every lane block of the output row is some point's. -/
theorem index_onto : ∀ q : Fin 31, ∃ t : Fin cfg1.N, win1_2.index t = ![0, q.val] :=
  (by decide +kernel : ∀ q : Fin 31, ∃ t : Fin grid1.N, win1_2.index t = ![0, q.val])

/-- What point `t` writes back is block `t` of `rowDots` of the two input arrays. -/
theorem flushed_eq (c : Dev nD) (t : Fin cfg1.N) :
    (dat1 V c).flushed 2 t = ((cfg1.win 2).blk t).view.read (Elt Ideal) (rowDots (V c main_v62) (V c main_v63)) := by
  show (cfg1.win 2).cut (grid1.coords t) ((dat1 V c).after 2 t) = _
  rw [after1_2]
  unfold out1_2
  rw [View.canon_unit_zero zero_offsets]
  simp only [View.ld_unit_zero (S := S16384x64) zero_offsets]
  rw [payload_eq]
  obtain ⟨e0, e1, e2, e3, e4, e5⟩ := index_facts t
  funext j
  show pairSum (V c main_v62) (V c main_v63)
      (fun k => ((cfg1.win 0).blk t).view.emb (ix2 (⟨(j 1).val, (j 1).isLt⟩ : Fin 16384) k))
      (fun k => ((cfg1.win 1).blk t).view.emb (ix2 (⟨(j 1).val, (j 1).isLt⟩ : Fin 16384) k))
    = pairSum (V c main_v62) (V c main_v63)
      (fun k => ix2 (⟨((((cfg1.win 2).blk t).view.emb j) 1).val, ((((cfg1.win 2).blk t).view.emb j) 1).isLt⟩ : Fin 507904) k)
      (fun k => ix2 (⟨((((cfg1.win 2).blk t).view.emb j) 1).val, ((((cfg1.win 2).blk t).view.emb j) 1).isLt⟩ : Fin 507904) k)
  have h0 : (fun k : Fin 64 => ((cfg1.win 0).blk t).view.emb (ix2 (⟨(j 1).val, (j 1).isLt⟩ : Fin 16384) k))
      = fun k => ix2 (⟨((((cfg1.win 2).blk t).view.emb j) 1).val, ((((cfg1.win 2).blk t).view.emb j) 1).isLt⟩ : Fin 507904) k := by
    funext k a; apply Fin.ext
    match a with
    | ⟨0, _⟩ => show win1_0.index t (0 : Fin 2) * 16384 + 1 * (j 1).val = win1_2.index t (1 : Fin 2) * 16384 + 1 * (j 1).val; omega
    | ⟨1, _⟩ => show win1_0.index t (1 : Fin 2) * 64 + 1 * k.val = k.val; omega
  have h1 : (fun k : Fin 64 => ((cfg1.win 1).blk t).view.emb (ix2 (⟨(j 1).val, (j 1).isLt⟩ : Fin 16384) k))
      = fun k => ix2 (⟨((((cfg1.win 2).blk t).view.emb j) 1).val, ((((cfg1.win 2).blk t).view.emb j) 1).isLt⟩ : Fin 507904) k := by
    funext k a; apply Fin.ext
    match a with
    | ⟨0, _⟩ => show win1_1.index t (0 : Fin 2) * 16384 + 1 * (j 1).val = win1_2.index t (1 : Fin 2) * 16384 + 1 * (j 1).val; omega
    | ⟨1, _⟩ => show win1_1.index t (1 : Fin 2) * 64 + 1 * k.val = k.val; omega
  rw [h0, h1]

/-- An index of the output row is in point `t`'s block iff each coordinate is in the block's range on its axis. -/
theorem mem_block (t : Fin cfg1.N) (i : S1x507904.Idx) :
    i ∈ ((cfg1.win 2).blk t).view.set ↔ ∀ a : Fin 2, win1_2.index t a * S1x16384.size a ≤ (i a).val ∧ (i a).val < win1_2.index t a * S1x16384.size a + S1x16384.size a := by
  show i ∈ ((View.whole main_v64).slice (win1_2.rect t)).set ↔ _
  rw [View.set_slice_whole, Rect.mem_set_unit]
  exact Iff.rfl

/-- Every index of the output row is in some point's block: lane `r` is in block `r / 16384`. -/
theorem covered (i : S1x507904.Idx) :
    ∃ t : Fin cfg1.N, (cfg1.win 2).flush t = true ∧ i ∈ ((cfg1.win 2).blk t).view.set := by
  have hi0 : (i 0).val < 1 := (i 0).isLt
  have hi1 : (i 1).val < 507904 := (i 1).isLt
  obtain ⟨t, ht⟩ := index_onto ⟨(i 1).val / 16384, by omega⟩
  have q0 : win1_2.index t (0 : Fin 2) = 0 := congrFun ht 0
  have q1 : win1_2.index t (1 : Fin 2) = (i 1).val / 16384 := congrFun ht 1
  refine ⟨t, flush1_2 t, ?_⟩
  rw [mem_block]
  intro a
  match a with
  | ⟨0, _⟩ => show win1_2.index t (0 : Fin 2) * 1 ≤ (i 0).val ∧ (i 0).val < win1_2.index t (0 : Fin 2) * 1 + 1; omega
  | ⟨1, _⟩ => show win1_2.index t (1 : Fin 2) * 16384 ≤ (i 1).val ∧ (i 1).val < win1_2.index t (1 : Fin 2) * 16384 + 16384; omega

/-- THE OUTPUT ROW AFTER THE REGION: `rowDots` of the two input arrays as the region found them. -/
theorem final (c : Dev nD) : (dat1 V c).arrAt 2 cfg1.N = rowDots (V c main_v62) (V c main_v63) :=
  (dat1 V c).arrAt_eq_of_cover 2 (rowDots (V c main_v62) (V c main_v63)) (fun t _ => flushed_eq V c t) covered

end Cert.KernelIdeal.Score

end
-- ==== Proof.PaddedLaws.lean ====
/-
  The two laws that join the kernel's program with the reference, over arbitrary arrays of extended reals.

  (A) SCALING. Pad the 1250000 × 64 features and the 1250000 weights with 3376 further rows (of anything), turn the weights
      into a column, form `feature[r, c] · weight[r, 0]` over the 1253376 rows and keep the first 1250000: that is the
      weights spread along the rows, times the features. The kept rows lie inside both operands, where a padded array
      is the array itself; the only algebra is that the product of two extended reals commutes.
  (B) SCORING. Pad two 500000 × 64 arrays with 7904 further rows (of anything), take the dot product of each pair of
      rows into one row of 507904 lanes, read the row as a vector and keep its first 500000 entries: that is the sum
      over the 64 lanes of the entry-wise product of the two arrays, from the initial value 0.
  Neither law needs the entries to be finite: no factor is moved across a sum.
-/
import proofs.«165329_j64244120814278_2_alg».proof.Proof.ScaleRegion
import proofs.«165329_j64244120814278_2_alg».proof.Proof.ScoreRegion
import Idealize.ShloMosaic.Lib.KernelVsHost
import Idealize.ShloMosaic.PureOps.Ideal.Laws

noncomputable section

namespace Cert.KernelIdeal.Padded

open Cert.KernelIdeal Idealize.ShloMosaic Idealize.ShloMosaic.ValueIdx

/-- (A) The first 1250000 rows of the row-scaled padded arrays are the weights spread along the rows, times the features. -/
theorem slice_rowScaled_pad (g : S1250000x64.Idx → EReal) (n : S1250000.Idx → EReal) (z z' : S_.Idx → EReal)
    (hp : S1250000x64.Pads (![0, 0] : Fin 2 → Nat) ![3376, 0] ![0, 0] S1253376x64)
    (hp' : S1250000.Pads (![0] : Fin 1 → Nat) ![3376] ![0] S1253376)
    (hc : S1253376.ShapeCasts S1253376x1) (hs : S1253376x64.Slices ![0, 0] S1250000x64) (hu : 0 < S_.numel)
    (hb : S1250000.BroadcastsInDim S1250000x1 (![0] : Fin 1 → Fin S1250000x1.rank))
    (hb' : S1250000x1.BroadcastsInDim S1250000x64 (![0, 1] : Fin 2 → Fin S1250000x64.rank)) :
    extractStridedSlice S1250000x64 ![0, 0]
        (Scale.rowScaled (F := Ideal) (pad S1253376x64 ![0, 0] ![3376, 0] ![0, 0] g z hp hu)
          (shapeCast S1253376x1 (pad S1253376 ![0] ![3376] ![0] n z' hp' hu) hc)) hs
      = mulf (F := Ideal) (φ := .f32) (broadcastInDim S1250000x64 ![0, 1] hb' (broadcastInDim S1250000x1 ![0] hb n)) g := by
  funext j
  obtain ⟨p, q, rfl⟩ : ∃ (p : Fin 1250000) (q : Fin 64), j = ix2 p q := ⟨j 0, j 1, eq_ix2 j⟩
  have hp1 : p.val < 1253376 := by have := p.isLt; omega
  -- the kept entry (p, q) of the padded product
  refine (extractStridedSlice_apply ![0, 0] _ hs (ix2 p q) (ix2 (⟨p.val, hp1⟩ : Fin 1253376) q) (fun a => match a with
    | ⟨0, _⟩ => by show p.val = 0 + p.val; omega
    | ⟨1, _⟩ => by show q.val = 0 + q.val; omega)).trans ?_
  show (pad S1253376x64 ![0, 0] ![3376, 0] ![0, 0] g z hp hu (ix2 (⟨p.val, hp1⟩ : Fin 1253376) q))
      * (shapeCast S1253376x1 (pad S1253376 ![0] ![3376] ![0] n z' hp' hu) hc (ix2 (⟨p.val, hp1⟩ : Fin 1253376) (0 : Fin 1)))
    = (broadcastInDim S1250000x64 ![0, 1] hb' (broadcastInDim S1250000x1 ![0] hb n) (ix2 p q)) * g (ix2 p q)
  -- inside the features
  have e1 : pad S1253376x64 ![0, 0] ![3376, 0] ![0, 0] g z hp hu (ix2 (⟨p.val, hp1⟩ : Fin 1253376) q) = g (ix2 p q) :=
    pad_apply_of_inside _ _ _ g z hp hu _ (ix2 p q) (fun a => match a with
      | ⟨0, _⟩ => by show p.val = 0 + p.val * (0 + 1); omega
      | ⟨1, _⟩ => by show q.val = 0 + q.val * (0 + 1); omega)
  -- the column of weights at row p is the padded weights at p, inside the weights
  have e2 : shapeCast S1253376x1 (pad S1253376 ![0] ![3376] ![0] n z' hp' hu) hc (ix2 (⟨p.val, hp1⟩ : Fin 1253376) (0 : Fin 1)) = n (ix1 p) :=
    (shapeCast_apply _ hc _ (ix1 (⟨p.val, hp1⟩ : Fin 1253376)) (by
      rw [Shape.rowMajor_val_one, Shape.rowMajor_val_two]
      show p.val = p.val * 1 + 0
      omega)).trans
    (pad_apply_of_inside _ _ _ n z' hp' hu _ (ix1 p) (fun a => match a with
      | ⟨0, _⟩ => by show p.val = 0 + p.val * (0 + 1); omega))
  -- the weights spread to a column, then along the row
  have e3 : broadcastInDim S1250000x64 ![0, 1] hb' (broadcastInDim S1250000x1 ![0] hb n) (ix2 p q) = n (ix1 p) :=
    (broadcastInDim_apply _ hb' _ (ix2 p q) (ix2 p (0 : Fin 1)) (fun a => match a with
      | ⟨0, _⟩ => by show p.val = if (1250000 : Nat) = 1 then 0 else p.val; rw [if_neg (by decide)]
      | ⟨1, _⟩ => by show 0 = if (1 : Nat) = 1 then 0 else q.val; rw [if_pos rfl])).trans
    (broadcastInDim_apply _ hb n (ix2 p (0 : Fin 1)) (ix1 p) (fun a => match a with
      | ⟨0, _⟩ => by show p.val = if (1250000 : Nat) = 1 then 0 else p.val; rw [if_neg (by decide)]))
  rw [e1, e2, e3]
  exact mul_comm _ _

/-- (B) The first 500000 entries of the padded rows' dot products, read as a vector, are the sums over the lanes of the
    entry-wise product, from 0. -/
theorem slice_rowDots_pad (a b : S500000x64.Idx → EReal) (z z' : S_.Idx → EReal)
    (hp : S500000x64.Pads (![0, 0] : Fin 2 → Nat) ![7904, 0] ![0, 0] S507904x64)
    (hc : S1x507904.ShapeCasts S507904) (hs : S507904.Slices ![0] S500000) (hu : 0 < S_.numel)
    (hr : S500000x64.ReducesTo [1] S500000) :
    extractStridedSlice S500000 ![0]
        (shapeCast S507904 (Score.rowDots (pad S507904x64 ![0, 0] ![7904, 0] ![0, 0] a z hp hu)
          (pad S507904x64 ![0, 0] ![7904, 0] ![0, 0] b z' hp hu)) hc) hs
      = Host.reduceAdd (F := Ideal) (φ := .f32) (mulf (F := Ideal) (φ := .f32) a b) (constant S_ .f32 0x00000000#32) hr hu := by
  funext j
  obtain ⟨p, rfl⟩ : ∃ p : Fin 500000, j = ix1 p := ⟨j 0, eq_ix1 j⟩
  have hp1 : p.val < 507904 := by have := p.isLt; omega
  -- the right side: 0 plus the sum over the lanes
  have eR : Host.reduceAdd (F := Ideal) (φ := .f32) (mulf (F := Ideal) (φ := .f32) a b) (constant S_ .f32 0x00000000#32) hr hu (ix1 p)
      = ∑ k : Fin 64, a (ix2 p k) * b (ix2 p k) := by
    simp only [Host.reduceAdd, Ideal.hostReduceAdd_def]
    rw [Ideal.hostReduceAdd_single hr (by decide)]
    show Ideal.ofBits .f32 0x00000000#32 + _ = _
    rw [Ideal.ofBits_zero_f32, zero_add]
    refine Finset.sum_congr rfl fun k _ => ?_
    show a _ * b _ = _
    have ei : (Shape.Reduces.lift (s := S500000x64) (t := S500000) (a := (1 : Fin 2)) (by decide) (ix1 p) k) = ix2 p k :=
      funext fun d => Fin.ext (by match d with | ⟨0, _⟩ => rfl | ⟨1, _⟩ => rfl)
    rw [ei]
    rfl
  rw [eR]
  -- the left side: entry p of the vector is lane p of the row, inside both operands
  refine (extractStridedSlice_apply ![0] _ hs (ix1 p) (ix1 (⟨p.val, hp1⟩ : Fin 507904)) (fun d => match d with
    | ⟨0, _⟩ => by show p.val = 0 + p.val; omega)).trans ?_
  refine (shapeCast_apply _ hc _ (ix2 (0 : Fin 1) (⟨p.val, hp1⟩ : Fin 507904)) (by
    rw [Shape.rowMajor_val_one, Shape.rowMajor_val_two]
    show 0 * 507904 + p.val = p.val
    omega)).trans ?_
  show (∑ k : Fin 64, pad S507904x64 ![0, 0] ![7904, 0] ![0, 0] a z hp hu (ix2 (⟨p.val, hp1⟩ : Fin 507904) k)
      * pad S507904x64 ![0, 0] ![7904, 0] ![0, 0] b z' hp hu (ix2 (⟨p.val, hp1⟩ : Fin 507904) k)) = _
  refine Finset.sum_congr rfl fun k _ => ?_
  have ea : pad S507904x64 ![0, 0] ![7904, 0] ![0, 0] a z hp hu (ix2 (⟨p.val, hp1⟩ : Fin 507904) k) = a (ix2 p k) :=
    pad_apply_of_inside _ _ _ a z hp hu _ (ix2 p k) (fun d => match d with
      | ⟨0, _⟩ => by show p.val = 0 + p.val * (0 + 1); omega
      | ⟨1, _⟩ => by show k.val = 0 + k.val * (0 + 1); omega)
  have eb : pad S507904x64 ![0, 0] ![7904, 0] ![0, 0] b z' hp hu (ix2 (⟨p.val, hp1⟩ : Fin 507904) k) = b (ix2 p k) :=
    pad_apply_of_inside _ _ _ b z' hp hu _ (ix2 p k) (fun d => match d with
      | ⟨0, _⟩ => by show p.val = 0 + p.val * (0 + 1); omega
      | ⟨1, _⟩ => by show k.val = 0 + k.val * (0 + 1); omega)
  rw [ea, eb]

end Cert.KernelIdeal.Padded

end
-- ==== Proof.KernelStages.lean ====
/-
  The kernel's program, stage by stage, against the reference's stages.

  Both programs compute, with the SAME host operations, the edge list's target column `col`, the per-edge weight
  `norm[e] = dis[row e] · dis[col e]` (from the in-degrees), and the gathered feature rows `x[row e]`. They differ twice:
    * the messages `norm[e] · x[row e]`: the reference spreads `norm` along the rows and multiplies; the kernel's program
      pads both operands to 1253376 rows, runs the scaling region and keeps the first 1250000 rows (law A);
    * the scores: the reference multiplies the two gathered node rows and sums over the 64 lanes; the kernel's program
      pads both to 507904 rows, runs the scoring region, reads its one row as a vector and keeps 500000 entries (law B).
  Between and around the two, the programs apply the same scatter-add and the same two gathers. So every stage of the
  kernel's program is read here as the reference's stage function of the same arguments (the generated functions
  `val_main_vN`), the shared operations never opened: a host stretch is read from its starting contents, a region by its
  closed form, and the stages met by the two laws.
-/
import proofs.«165329_j64244120814278_2_alg».proof.Proof.PaddedLaws
import proofs.«165329_j64244120814278_2_alg».proof.Proof.RefRead
import Idealize.ShloMosaic.Lib.StableHlo.Run

noncomputable section

namespace Cert.KernelIdeal.Stages

open Cert.KernelIdeal Cert.KernelIdeal.Gen Idealize.ShloMosaic Idealize.ShloMosaic.TcCoe Idealize.SL.Sem Idealize.ShloMosaic.StableHlo
open Cert.ReferenceIdeal.ReadP

/-! ## The host stretches, from arbitrary starting contents -/

section Stretches
variable (V : Valuation τ sig (Elt Ideal))

/-- Between the shared stages and the scaling region: the gathered rows are padded to 1253376 rows (with some value). -/
theorem padded_rows : ∃ z : S_.Idx → EReal,
    StableHlo.after hostOps0_6 (StableHlo.after hostOps0_5 (StableHlo.after hostOps0_4 (StableHlo.after hostOps0_3 V))) (Proc.devRef .tc main_v36)
      = pad S1253376x64 ![0, 0] ![3376, 0] ![0, 0] (V (Proc.devRef .tc main_v35)) z pads_S1250000x64_S1253376x64_033760_000 h_S_ := by
  refine ⟨?z, ?h⟩
  case h =>
    simp only [hostOps0_6, hostOps0_5, hostOps0_4, hostOps0_3]
    after_results_simp
    rfl

/-- … the weights are padded to 1253376 entries (with some value) and turned into a column. -/
theorem padded_weights : ∃ z : S_.Idx → EReal,
    StableHlo.after hostOps0_6 (StableHlo.after hostOps0_5 (StableHlo.after hostOps0_4 (StableHlo.after hostOps0_3 V))) (Proc.devRef .tc main_v38)
      = shapeCast S1253376x1 (pad S1253376 ![0] ![3376] ![0] (V (Proc.devRef .tc main_v28)) z pads_S1250000_S1253376_033760 h_S_)
          shapeCasts_S1253376_S1253376x1 := by
  refine ⟨?z, ?h⟩
  case h =>
    simp only [hostOps0_6, hostOps0_5, hostOps0_4, hostOps0_3]
    after_results_simp
    rfl

/-- … and the target column and the scored edge list are not touched. -/
theorem kept_col :
    StableHlo.after hostOps0_6 (StableHlo.after hostOps0_5 (StableHlo.after hostOps0_4 (StableHlo.after hostOps0_3 V))) (Proc.devRef .tc main_v3)
      = V (Proc.devRef .tc main_v3) := by
  simp only [hostOps0_6, hostOps0_5, hostOps0_4, hostOps0_3]
  after_results_simp

theorem kept_edges :
    StableHlo.after hostOps0_6 (StableHlo.after hostOps0_5 (StableHlo.after hostOps0_4 (StableHlo.after hostOps0_3 V))) (Proc.devRef .tc main_arg3)
      = V (Proc.devRef .tc main_arg3) := by
  simp only [hostOps0_6, hostOps0_5, hostOps0_4, hostOps0_3]
  after_results_simp

/-- Between the two regions, after the gathers: both gathered arrays are padded to 507904 rows (with some values). -/
theorem padded_left : ∃ z : S_.Idx → EReal,
    StableHlo.after hostOps1_3 (StableHlo.after hostOps1_2 (StableHlo.after hostOps1_1 V)) (Proc.devRef .tc main_v62)
      = pad S507904x64 ![0, 0] ![7904, 0] ![0, 0] (V (Proc.devRef .tc main_v54)) z pads_S500000x64_S507904x64_079040_000 h_S_ := by
  refine ⟨?z, ?h⟩
  case h =>
    simp only [hostOps1_3, hostOps1_2, hostOps1_1]
    after_results_simp
    rfl

theorem padded_right : ∃ z : S_.Idx → EReal,
    StableHlo.after hostOps1_3 (StableHlo.after hostOps1_2 (StableHlo.after hostOps1_1 V)) (Proc.devRef .tc main_v63)
      = pad S507904x64 ![0, 0] ![7904, 0] ![0, 0] (V (Proc.devRef .tc main_v61)) z pads_S500000x64_S507904x64_079040_000 h_S_ := by
  refine ⟨?z, ?h⟩
  case h =>
    simp only [hostOps1_3, hostOps1_2, hostOps1_1]
    after_results_simp
    rfl

/-- After the scoring region: its one row is read as a vector and the first 500000 entries kept. -/
theorem kept_scores :
    StableHlo.after hostOps2 V (Proc.devRef .tc main_v66)
      = extractStridedSlice S500000 ![0] (shapeCast S507904 (V (Proc.devRef .tc main_v64)) shapeCasts_S1x507904_S507904) slices_S507904_S500000_0 := by
  simp only [hostOps2]
  after_results_simp
  rfl

end Stretches

variable (m : (ℓ : Loc nD τ sig) → Buf (Elt Ideal) ℓ) (ρ : Dev nD → PrngReg) (c : Dev nD)

/-! ## The shared stages before the scaling region -/

/-- The edge list's target column. -/
theorem col_eq : W3 m ρ c (Proc.devRef .tc main_v3) = val_main_v8 (F := Ideal) (m ((c.tc : Thread nD τ).loc main_arg4)) := by
  show StableHlo.after hostOps0_2 (StableHlo.after hostOps0_1 (StableHlo.after hostOps0 (W0 m ρ c))) (Proc.devRef .tc main_v3) = _
  simp only [hostOps0_2, hostOps0_1, hostOps0]
  after_results_simp
  rfl

/-- The outlined `where(c, a, 0)` as the program spells it — every value moved between its tensor type and its buffer's
    type, which are the same type — is the plain selection. -/
theorem where_eq (a : (⟨S200000, .i1⟩ : BufTy).Contents (Elt Ideal)) (b : (⟨S200000, .f32⟩ : BufTy).Contents (Elt Ideal)) :
    (TRef.of (sig := sig) (T := ⟨S200000, .f32⟩) main_v13).toBuf (Val := Elt Ideal)
      (select ((TRef.of (sig := sig) (T := ⟨S200000, .i1⟩) main_v9).ofBuf (Val := Elt Ideal) a)
        ((TRef.of (sig := sig) (T := ⟨S200000, .f32⟩) main_v12).ofBuf (Val := Elt Ideal) b)
        ((TRef.of (sig := sig) (T := ⟨S200000, .f32⟩) main_call0_v1).ofBuf (Val := Elt Ideal)
          ((TRef.of (sig := sig) (T := ⟨S200000, .f32⟩) main_call0_v1).toBuf (Val := Elt Ideal)
            (broadcastInDim S200000 ![] bcast_S_S200000
              ((TRef.of (sig := sig) (T := ⟨S_, .f32⟩) main_call0_v0).ofBuf (Val := Elt Ideal)
                ((TRef.of (sig := sig) (T := ⟨S_, .f32⟩) main_call0_v0).toBuf (Val := Elt Ideal)
                  (id ((TRef.of (sig := sig) (T := ⟨S_, .f32⟩) main_cst_3).ofBuf (Val := Elt Ideal)
                    (constant (F := Ideal) S_ .f32 0x00000000#32)))))))))
      = select a b (broadcastInDim S200000 ![] bcast_S_S200000 (id (constant (F := Ideal) S_ .f32 0x00000000#32))) := rfl

/-- `dis`: the inverse square roots of the in-degrees, 0 where the degree is 0. -/
theorem dis_eq : W2 m ρ c (Proc.devRef .tc main_v13) = val_main_v18 (F := Ideal) (m ((c.tc : Thread nD τ).loc main_arg4)) := by
  show StableHlo.after hostOps0_1 (StableHlo.after hostOps0 (W0 m ρ c)) (Proc.devRef .tc main_v13) = _
  simp only [hostOps0_1, hostOps0]
  after_results_simp
  refine (where_eq _ _).trans ?_
  rfl

/-- The edge list's source column, before the weights are formed. -/
theorem row2_eq : W2 m ρ c (Proc.devRef .tc main_v1) = val_main_v6 (F := Ideal) (m ((c.tc : Thread nD τ).loc main_arg4)) := by
  show StableHlo.after hostOps0_1 (StableHlo.after hostOps0 (W0 m ρ c)) (Proc.devRef .tc main_v1) = _
  simp only [hostOps0_1, hostOps0]
  after_results_simp
  rfl

/-- The edge list's target column, before the weights are formed. -/
theorem col2_eq : W2 m ρ c (Proc.devRef .tc main_v3) = val_main_v8 (F := Ideal) (m ((c.tc : Thread nD τ).loc main_arg4)) := by
  show StableHlo.after hostOps0_1 (StableHlo.after hostOps0 (W0 m ρ c)) (Proc.devRef .tc main_v3) = _
  simp only [hostOps0_1, hostOps0]
  after_results_simp
  rfl

set_option maxHeartbeats 4000000 in
/-- The per-edge weights `dis[row] · dis[col]`: the stretch that forms them read from what it finds, `dis` and the two
    columns then named. -/
theorem weights_eq : W3 m ρ c (Proc.devRef .tc main_v28) = val_main_v33 (F := Ideal) (m ((c.tc : Thread nD τ).loc main_arg4)) := by
  show StableHlo.after hostOps0_2 (W2 m ρ c) (Proc.devRef .tc main_v28) = _
  generalize hV : W2 m ρ c = V2
  simp only [hostOps0_2]
  after_results_simp
  subst hV
  rw [dis_eq, row2_eq, col2_eq]
  rfl

set_option maxHeartbeats 4000000 in
/-- The gathered feature rows `x[row]`. -/
theorem rows_eq : W3 m ρ c (Proc.devRef .tc main_v35)
    = val_main_v41 (F := Ideal) (m ((c.tc : Thread nD τ).loc main_arg0)) (m ((c.tc : Thread nD τ).loc main_arg4)) := by
  show StableHlo.after hostOps0_2 (StableHlo.after hostOps0_1 (StableHlo.after hostOps0 (W0 m ρ c))) (Proc.devRef .tc main_v35) = _
  simp only [hostOps0_2, hostOps0_1, hostOps0]
  after_results_simp
  rfl

/-- The scored edge list is the argument. -/
theorem edges_eq : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  simp only [hostOps0_2, hostOps0_1, hostOps0]
  after_results_simp

/-! ## The scaling region and the messages -/

/-- The scaling region's output array: row-scaled padded rows by the padded column of weights. -/
theorem scaled_eq : W8 m ρ c (Proc.devRef .tc main_v39)
    = Scale.rowScaled (F := Ideal) (W7 m ρ c (Proc.devRef .tc main_v36)) (W7 m ρ c (Proc.devRef .tc main_v38)) :=
  (W8_arr m ρ c 2).trans (Scale.final (V7 m ρ) c)

/-- The messages: the kept rows of the region's output are the reference's `norm[:, None] * x[row]` (law A). -/
theorem messages_eq :
    extractStridedSlice S1250000x64 ![0, 0] (W8 m ρ c (Proc.devRef .tc main_v39)) slices_S1253376x64_S1250000x64_0_0
      = val_main_v43 (F := Ideal) (m ((c.tc : Thread nD τ).loc main_arg0)) (m ((c.tc : Thread nD τ).loc main_arg4)) := by
  obtain ⟨z, hz⟩ := padded_rows (W3 m ρ c)
  obtain ⟨z', hz'⟩ := padded_weights (W3 m ρ c)
  rw [scaled_eq, show W7 m ρ c (Proc.devRef .tc main_v36) = _ from hz, show W7 m ρ c (Proc.devRef .tc main_v38) = _ from hz',
    Padded.slice_rowScaled_pad _ _ z z' _ _ _ _ _ Cert.ReferenceIdeal.Facts₀.bcast_S1250000_S1250000x1_0 Cert.ReferenceIdeal.Facts₀.bcast_S1250000x1_S1250000x64_0_1,
    rows_eq, weights_eq]
  rfl

/-! ## Between the regions: the aggregated node rows and the two gathers -/

/-- The target column, as the region leaves it (the region does not write it, nor do the stretches before it). -/
theorem col_kept : W8 m ρ c (Proc.devRef .tc main_v3) = val_main_v8 (F := Ideal) (m ((c.tc : Thread nD τ).loc main_arg4)) :=
  (W8_of_ne m ρ c main_v3 (by decide)).trans ((kept_col (W3 m ρ c)).trans (col_eq m ρ c))

/-- The scored edge list, as the region leaves it. -/
theorem edges_kept : W8 m ρ c (Proc.devRef .tc main_arg3) = m ((c.tc : Thread nD τ).loc main_arg3) :=
  (W8_of_ne m ρ c main_arg3 (by decide)).trans ((kept_edges (W3 m ρ c)).trans (edges_eq m ρ c))

set_option maxHeartbeats 4000000 in
/-- The first gathered array: the aggregated node rows (the scatter-add of the messages at the target column) at the
    scored edges' first end points. -/
theorem left_eq : W9 m ρ c (Proc.devRef .tc main_v54)
    = val_main_v55 (F := Ideal) (m ((c.tc : Thread nD τ).loc main_arg0)) (m ((c.tc : Thread nD τ).loc main_arg3)) (m ((c.tc : Thread nD τ).loc main_arg4)) := by
  show StableHlo.after hostOps1 (W8 m ρ c) (Proc.devRef .tc main_v54) = _
  simp only [hostOps1]
  after_results_simp
  rw [messages_eq, col_kept, edges_kept]
  rfl

set_option maxHeartbeats 4000000 in
/-- The second gathered array: the same node rows at the scored edges' second end points. -/
theorem right_eq : W9 m ρ c (Proc.devRef .tc main_v61)
    = val_main_v64 (F := Ideal) (m ((c.tc : Thread nD τ).loc main_arg0)) (m ((c.tc : Thread nD τ).loc main_arg3)) (m ((c.tc : Thread nD τ).loc main_arg4)) := by
  show StableHlo.after hostOps1 (W8 m ρ c) (Proc.devRef .tc main_v61) = _
  simp only [hostOps1]
  after_results_simp
  rw [messages_eq, col_kept, edges_kept]
  rfl

/-! ## The scoring region and the result -/

/-- The scoring region's output row: the padded gathered arrays' row dot products. -/
theorem dots_eq : W13 m ρ c (Proc.devRef .tc main_v64)
    = Score.rowDots (W12 m ρ c (Proc.devRef .tc main_v62)) (W12 m ρ c (Proc.devRef .tc main_v63)) :=
  (W13_arr m ρ c 2).trans (Score.final (V12 m ρ) c)

/-- THE RESULT of the kernel's program is the reference's result function of the same arguments (law B, then the two
    gathered arrays). -/
theorem result_eq : W14 m ρ c (Proc.devRef .tc main_v66)
    = val_main_v66 (F := Ideal) (m ((c.tc : Thread nD τ).loc main_arg0)) (m ((c.tc : Thread nD τ).loc main_arg3)) (m ((c.tc : Thread nD τ).loc main_arg4)) := by
  obtain ⟨z, hz⟩ := padded_left (W9 m ρ c)
  obtain ⟨z', hz'⟩ := padded_right (W9 m ρ c)
  rw [show W14 m ρ c (Proc.devRef .tc main_v66) = _ from kept_scores (W13 m ρ c), dots_eq,
    show W12 m ρ c (Proc.devRef .tc main_v62) = _ from hz, show W12 m ρ c (Proc.devRef .tc main_v63) = _ from hz',
    Padded.slice_rowDots_pad _ _ z z' _ _ _ _ Cert.ReferenceIdeal.Facts₀.reducesTo_S500000x64_S500000_d1, left_eq, right_eq]
  rfl

end Cert.KernelIdeal.Stages

end
-- ==== Proof.lean ====
/-
  Link-prediction scores after one LightGCN propagation: the kernel's program against its jnp reference, at the
  exact values (extended reals).

  For a graph on 200000 nodes with features x (64 per node), an edge list (row, col) of 1250000 edges and 500000
  scored pairs (e0, e1), both programs compute
      deg[v]   = number of edges with target v,      dis[v] = 1/sqrt(max(deg[v], 1)) if deg[v] > 0, else 0,
      norm[e]  = dis[row e] · dis[col e],            msg[e, :] = norm[e] · x[row e, :],
      out[v,:] = sum of msg[e, :] over the edges e with target v,
      score[s] = sum over the 64 features k of out[e0 s, k] · out[e1 s, k].
  (The reference also forms a linear layer x·Wᵀ + b that nothing reads; it does not reach the result.)
  The degrees, dis, norm, the gather x[row], the scatter-add into out and the two gathers out[e0], out[e1] are the same
  host operations in both programs. The kernel's program differs in two places, each a blocked kernel on zero-padded
  operands whose padding is cut off again:
    * msg: the gathered rows and norm are padded from 1250000 to 1253376 rows, a kernel over 153 blocks of 8192 rows
      stores feature · weight (the weight spread along its row), and the first 1250000 rows are kept;
    * score: both gathered arrays are padded from 500000 to 507904 rows, a kernel over 31 blocks of 16384 rows stores the
      64-lane sums of the products as one row, which is read as a vector and cut to 500000 entries.
  Each kernel's blocks are restrictions of one whole-array function and cover its output (ScaleRegion, ScoreRegion); kept
  rows lie inside the unpadded operands, so the padding value never matters; and the only algebra between the two sides is
  that a product of extended reals commutes and that a lane sum into zero and a host sum from zero are the same finite
  sum (PaddedLaws). No factor moves across a sum, so the finiteness of the inputs is not used: the claim holds on all of
  the extended reals.

  The three frames: the two kernel programs' by the generated frame certificates; the reference's is its run with the
  result dropped. The idealization rewrote nothing, so it is preserved trivially. For the equality of results, the
  kernel's program runs to its last boundary's contents (KernelRun), whose result buffer is the reference's result
  function of the same arguments (KernelStages), and the reference runs to that function of its own arguments, which
  agree.
-/
import proofs.«165329_j64244120814278_2_alg».proof.Defs
import proofs.«165329_j64244120814278_2_alg».proof.Proof.Gen.Kernel
import proofs.«165329_j64244120814278_2_alg».proof.Proof.Gen.Kernel.Skeleton
import proofs.«165329_j64244120814278_2_alg».proof.Proof.Gen.Kernel.Launch
import proofs.«165329_j64244120814278_2_alg».proof.Proof.Gen.Kernel.Points
import proofs.«165329_j64244120814278_2_alg».proof.Proof.Gen.Kernel.Frame
import proofs.«165329_j64244120814278_2_alg».proof.Proof.Gen.KernelIdeal
import proofs.«165329_j64244120814278_2_alg».proof.Proof.Gen.KernelIdeal.Skeleton
import proofs.«165329_j64244120814278_2_alg».proof.Proof.Gen.KernelIdeal.Launch
import proofs.«165329_j64244120814278_2_alg».proof.Proof.Gen.KernelIdeal.Points
import proofs.«165329_j64244120814278_2_alg».proof.Proof.Gen.KernelIdeal.Frame
import proofs.«165329_j64244120814278_2_alg».proof.Proof.Gen.ReferenceIdeal
import proofs.«165329_j64244120814278_2_alg».proof.Proof.Gen.Pre_finite_inputs
import proofs.«165329_j64244120814278_2_alg».proof.Proof.RefRun
import proofs.«165329_j64244120814278_2_alg».proof.Proof.RefRead
import proofs.«165329_j64244120814278_2_alg».proof.Proof.KernelRun
import proofs.«165329_j64244120814278_2_alg».proof.Proof.KernelStages
import Idealize.ShloMosaic.Adequacy
import Idealize.ShloMosaic.Init

noncomputable section

namespace Cert.Proof

open Idealize.ShloMosaic Idealize.SL.Sem

/-- The kernel's program, as printed, runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the scores at the reference's result function of
    the arguments: the kernel's program by its run and its stages, the reference by its own run. -/
theorem algebraic : Cert.algebraic_KernelIdeal_ReferenceIdeal := by
  intro m ρ m' ρ' _ hagree
  refine ⟨fun c => Cert.ReferenceIdeal.ReadP.val_main_v66 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Stages.result_eq m ρ c), (h c).2⟩)
      (Cert.KernelIdeal.Whole.run (F := Ideal) m ρ)
  · refine (θ_run Cert.ReferenceIdeal.defs _ _).mono (fun _ h c => ⟨?_, (h c).2⟩)
      (Cert.ReferenceIdeal.ValueP.run (F := Ideal) m' ρ')
    rw [(h c).1, Cert.ReferenceIdeal.ReadP.val_main_v66_eq, (hagree c).1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
